-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x512 : Shape := ⟨2, ![4096, 512]⟩
abbrev S512 : Shape := ⟨1, ![512]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x512 : S_.BroadcastsInDim S4096x512 (![] : Fin 0 → Fin S4096x512.rank)
  reducesTo_S4096x512_S_d0_1 : S4096x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S8x2048x4096 .f32) (main_arg1 : FVec F S4096x512 .f32) (main_arg2 : FVec F S4096x512 .f32) (main_arg3 : FVec F S512 .f32) (main_arg4 : IVec S512 1) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x512 .f32 := Host.absf main_arg1
  let main_cst_0 : FVec F S_ .f32 := constant S_ .f32 0x7F800000#32
  let main_v5 : FVec F S4096x512 .f32 := broadcastInDim S4096x512 ![] bcast_S_S4096x512 main_cst_0
  let main_v6 : IVec S4096x512 1 := cmpf .olt main_v4 main_v5
  let main_c_1 : IVec S_ 1 := constantI S_ 1 1#1
  let main_v7 : IVec S_ 1 := (fun x v => Host.reduce IntOp.andi x v reducesTo_S4096x512_S_d0_1 h_S_) main_v6 main_c_1
  let main_v8 : IVec S_ 1 := andi main_v3 main_v7
  let main_v9 : FVec F S4096x512 .f32 := Host.absf main_arg2
  let main_cst_2 : FVec F S_ .f32 := constant S_ .f32 0x7F800000#32
  let main_v10 : FVec F S4096x512 .f32 := broadcastInDim S4096x512 ![] bcast_S_S4096x512 main_cst_2
  let main_v11 : IVec S4096x512 1 := cmpf .olt main_v9 main_v10
  let main_c_3 : IVec S_ 1 := constantI S_ 1 1#1
  let main_v12 : IVec S_ 1 := (fun x v => Host.reduce IntOp.andi x v reducesTo_S4096x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S8x2048x4096 : Shape := ⟨3, ![8, 2048, 4096]⟩
abbrev S4096x512 : Shape := ⟨2, ![4096, 512]⟩
abbrev S512 : Shape := ⟨1, ![512]⟩
abbrev S1x512 : Shape := ⟨2, ![1, 512]⟩
abbrev S16384x4096 : Shape := ⟨2, ![16384, 4096]⟩
abbrev S256x4096 : Shape := ⟨2, ![256, 4096]⟩
abbrev S256x512 : Shape := ⟨2, ![256, 512]⟩

abbrev nBuf : Space → Nat
  | .hbm => 15
  | .vmem => 6
  | .smem => 0
  | _ => 0

abbrev bufTy : (tb : Table) → Fin (tcTables nBuf tb) → BufTy
  | .hbm, ⟨0, _⟩ => ⟨S8x2048x4096, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .i1⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S4096x512, .bf16⟩
  | .hbm, ⟨11, _⟩ => ⟨S4096x512, .bf16⟩
  | .hbm, ⟨12, _⟩ => ⟨S16384x4096, .f32⟩
  | .hbm, ⟨13, _⟩ => ⟨S16384x4096, .f32⟩
  | .hbm, ⟨14, _⟩ => ⟨S8x2048x4096, .f32⟩
  | .local _ .vmem, ⟨0, _⟩ => ⟨S256x4096, .f32⟩
  | .local _ .vmem, ⟨1, _⟩ => ⟨S256x4096, .f32⟩
  | .local _ .vmem, ⟨2, _⟩ => ⟨S4096x512, .bf16⟩
  | .local _ .vmem, ⟨3, _⟩ => ⟨S4096x512, .bf16⟩
  | .local _ .vmem, ⟨4, _⟩ => ⟨S256x4096, .f32⟩
  | .local _ .vmem, ⟨5, _⟩ => ⟨S256x4096, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  bitsLt_bf16_f32 : FTy.bits .bf16 < FTy.bits .f32
  shapeCasts_S8x2048x4096_S16384x4096 : S8x2048x4096.ShapeCasts S16384x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S4096x512_S4096x512_0_0 : ∀ a, (![0, 0] : Fin 2 → Nat) a + S4096x512.size a ≤ S4096x512.size a
  h_S4096x512 : 0 < S4096x512.numel
  shapeCasts_S4096x512_S4096x512 : S4096x512.ShapeCasts S4096x512
  shapeCasts_S16384x4096_S8x2048x4096 : S16384x4096.ShapeCasts S8x2048x4096
  dot_S256x4096_S4096x512_S256x512_1_0_0_1_n_n_wf : DotDims.WF S256x4096 S4096x512 S256x512 [1] [0] [0] [1] [] []
  dot_S256x512_S4096x512_S256x4096_1_1_0_0_n_n_wf : DotDims.WF S256x512 S4096x512 S256x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S16384x4096.size a
  hwx0_0 : ∀ i : grid0.Coords, EltTy.bits .f32 = 32 ∨ (Rect.block (s := S16384x4096) S256x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .bf16 = 32 ∨ (Rect.block (s := S4096x512) S4096x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4096x512.size a ≤ S4096x512.size a
  hwx0_2 : ∀ i : grid0.Coords, EltTy.bits .bf16 = 32 ∨ (Rect.block (s := S4096x512) S4096x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S16384x4096.size a
  hwx0_3 : ∀ i : grid0.Coords, EltTy.bits .f32 = 32 ∨ (Rect.block (s := S16384x4096) S256x4096.size (cc0_transform_3 i) (hinb0_3 i)).WholeWords (EltTy.packing .f32)

variable [Facts₀]

def dot_S256x4096_S4096x512_S256x512_1_0_0_1_n_n : DotDims S256x4096 S4096x512 S256x512 where
  lhsContracting := [1]
  rhsContracting := [0]
  lhsNonContracting := [0]
  rhsNonContracting := [1]
  lhsBatch := []
  rhsBatch := []
  wf := dot_S256x4096_S4096x512_S256x512_1_0_0_1_n_n_wf
def dot_S256x512_S4096x512_S256x4096_1_1_0_0_n_n : DotDims S256x512 S4096x512 S256x4096 where
  lhsContracting := [1]
  rhsContracting := [1]
  lhsNonContracting := [0]
  rhsNonContracting := [0]
  lhsBatch := []
  rhsBatch := []
  wf := dot_S256x512_S4096x512_S256x4096_1_1_0_0_n_n_wf

abbrev win0_0 : Pipeline.Window sig grid0 :=
  Pipeline.Window.ofSpec (Memref.whole main_v7) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S4096x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S256x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x2048x4096 : Shape := ⟨3, ![8, 2048, 4096]⟩
abbrev S4096x512 : Shape := ⟨2, ![4096, 512]⟩
abbrev S512 : Shape := ⟨1, ![512]⟩
abbrev S1x512 : Shape := ⟨2, ![1, 512]⟩
abbrev S512x4096 : Shape := ⟨2, ![512, 4096]⟩
abbrev S4096x4096 : Shape := ⟨2, ![4096, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x512, .f32⟩
  | .hbm, ⟨2, _⟩ => ⟨S4096x512, .f32⟩
  | .hbm, ⟨3, _⟩ => ⟨S512, .f32⟩
  | .hbm, ⟨4, _⟩ => ⟨S512, .i1⟩
  | .hbm, ⟨5, _⟩ => ⟨S512, .f32⟩
  | .hbm, ⟨6, _⟩ => ⟨S512, .f32⟩
  | .hbm, ⟨7, _⟩ => ⟨S1x512, .f32⟩
  | .hbm, ⟨8, _⟩ => ⟨S4096x512, .f32⟩
  | .hbm, ⟨9, _⟩ => ⟨S4096x512, .f32⟩
  | .hbm, ⟨10, _⟩ => ⟨S512x4096, .f32⟩
  | .hbm, ⟨11, _⟩ => ⟨S4096x4096, .f32⟩
  | .hbm, ⟨12, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  transposes_S4096x512_S512x4096_1_0 : S4096x512.Transposes [1, 0] S512x4096
  dot_S4096x512_S512x4096_S4096x4096_1_0_0_1_n_n_wf : DotDims.WF S4096x512 S512x4096 S4096x4096 [1] [0] [0] [1] [] []
  dot_S8x2048x4096_S4096x4096_S8x2048x4096_2_1_01_0_n_n_wf : DotDims.WF S8x2048x4096 S4096x4096 S8x2048x4096 [2] [1] [0, 1] [0] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Payload.lean ====
/-
  What the kernel body computes on one block of 256 rows, at the exact values.

  The body multiplies its block `X` (256 × 4096) by `U` (4096 × 512), and the product `H` (256 × 512) by the
  transpose of `Vs` (4096 × 512): the second product contracts the trailing axis of both operands. Both products
  start from a zero accumulator, and the changes of float format in between are the identity on exact values. So
  entry `(p, o)` of what the body stores is
      ∑ₖ (∑ᵢ X[p, i] · U[i, k]) · Vs[o, k].
  The two products are read at an index first (each is the sum, over its one contracted coordinate, of the
  products of the operands' entries), then the body's term is read through them.
-/
import proofs.«158175_j23587960389934_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The first product, X · U: the left operand's axis 1 against the right operand's axis 0 -/

theorem first_lhs_0 (j : S256x512.Idx) (q : dot_S256x4096_S4096x512_S256x512_1_0_0_1_n_n.contr.Idx) :
    (dot_S256x4096_S4096x512_S256x512_1_0_0_1_n_n.lhsIdx j q 0).val = (j 0).val := by
  unfold DotDims.lhsIdx
  rw [dif_neg (show ¬(0 : Fin S256x4096.rank) ∈ dot_S256x4096_S4096x512_S256x512_1_0_0_1_n_n.lhsBatch by decide), dif_pos (show (0 : Fin S256x4096.rank) ∈ dot_S256x4096_S4096x512_S256x512_1_0_0_1_n_n.lhsNonContracting by decide)]
  rfl
theorem first_lhs_1 (j : S256x512.Idx) (q : dot_S256x4096_S4096x512_S256x512_1_0_0_1_n_n.contr.Idx) :
    (dot_S256x4096_S4096x512_S256x512_1_0_0_1_n_n.lhsIdx j q 1).val = (q ⟨0, by decide⟩).val :=
  dot_S256x4096_S4096x512_S256x512_1_0_0_1_n_n.lhsIdx_val_of_single rfl j q
theorem first_rhs_0 (j : S256x512.Idx) (q : dot_S256x4096_S4096x512_S256x512_1_0_0_1_n_n.contr.Idx) :
    (dot_S256x4096_S4096x512_S256x512_1_0_0_1_n_n.rhsIdx j q 0).val = (q ⟨0, by decide⟩).val :=
  dot_S256x4096_S4096x512_S256x512_1_0_0_1_n_n.rhsIdx_val_of_single rfl j q
theorem first_rhs_1 (j : S256x512.Idx) (q : dot_S256x4096_S4096x512_S256x512_1_0_0_1_n_n.contr.Idx) :
    (dot_S256x4096_S4096x512_S256x512_1_0_0_1_n_n.rhsIdx j q 1).val = (j 1).val := by
  unfold DotDims.rhsIdx
  rw [dif_neg (show ¬(1 : Fin S4096x512.rank) ∈ dot_S256x4096_S4096x512_S256x512_1_0_0_1_n_n.rhsBatch by decide), dif_pos (show (1 : Fin S4096x512.rank) ∈ dot_S256x4096_S4096x512_S256x512_1_0_0_1_n_n.rhsNonContracting by decide)]
  rfl

/-- Entry `(p, k)` of X · U, accumulated from zero, is `∑ᵢ X[p, i] · U[i, k]`. -/
theorem first_product_apply (A : FVec Ideal S256x4096 .bf16) (B : FVec Ideal S4096x512 .bf16) (p : Fin 256) (k : Fin 512) :
    matmul dot_S256x4096_S4096x512_S256x512_1_0_0_1_n_n none A B (constant (F := Ideal) S256x512 .f32 0x00000000#32) (ix2 p k)
      = ∑ i : Fin 4096, A (ix2 p i) * B (ix2 i k) := by
  show FloatOps.matmul dot_S256x4096_S4096x512_S256x512_1_0_0_1_n_n none A B (constant (F := Ideal) S256x512 .f32 0x00000000#32) (ix2 p k) = _
  rw [Ideal.matmul_constant_zero_apply, ← Equiv.sum_comp (contrEquiv1 dot_S256x4096_S4096x512_S256x512_1_0_0_1_n_n 4096 rfl rfl).symm]
  refine Finset.sum_congr rfl fun i _ => ?_
  have hi := contrEquiv1_symm_val dot_S256x4096_S4096x512_S256x512_1_0_0_1_n_n 4096 rfl rfl i
  have el : dot_S256x4096_S4096x512_S256x512_1_0_0_1_n_n.lhsIdx (ix2 p k) ((contrEquiv1 dot_S256x4096_S4096x512_S256x512_1_0_0_1_n_n 4096 rfl rfl).symm i) = ix2 p i := funext fun a => Fin.ext (by
    match a with
    | ⟨0, _⟩ => exact first_lhs_0 _ _
    | ⟨1, _⟩ => exact (first_lhs_1 _ _).trans hi)
  have er : dot_S256x4096_S4096x512_S256x512_1_0_0_1_n_n.rhsIdx (ix2 p k) ((contrEquiv1 dot_S256x4096_S4096x512_S256x512_1_0_0_1_n_n 4096 rfl rfl).symm i) = ix2 i k := funext fun a => Fin.ext (by
    match a with
    | ⟨0, _⟩ => exact (first_rhs_0 _ _).trans hi
    | ⟨1, _⟩ => exact first_rhs_1 _ _)
  rw [el, er]

/-! ## The second product, H · Vsᵀ: the trailing axis of both operands contracted -/

theorem second_lhs_0 (j : S256x4096.Idx) (q : dot_S256x512_S4096x512_S256x4096_1_1_0_0_n_n.contr.Idx) :
    (dot_S256x512_S4096x512_S256x4096_1_1_0_0_n_n.lhsIdx j q 0).val = (j 0).val := by
  unfold DotDims.lhsIdx
  rw [dif_neg (show ¬(0 : Fin S256x512.rank) ∈ dot_S256x512_S4096x512_S256x4096_1_1_0_0_n_n.lhsBatch by decide), dif_pos (show (0 : Fin S256x512.rank) ∈ dot_S256x512_S4096x512_S256x4096_1_1_0_0_n_n.lhsNonContracting by decide)]
  rfl
theorem second_lhs_1 (j : S256x4096.Idx) (q : dot_S256x512_S4096x512_S256x4096_1_1_0_0_n_n.contr.Idx) :
    (dot_S256x512_S4096x512_S256x4096_1_1_0_0_n_n.lhsIdx j q 1).val = (q ⟨0, by decide⟩).val :=
  dot_S256x512_S4096x512_S256x4096_1_1_0_0_n_n.lhsIdx_val_of_single rfl j q
theorem second_rhs_0 (j : S256x4096.Idx) (q : dot_S256x512_S4096x512_S256x4096_1_1_0_0_n_n.contr.Idx) :
    (dot_S256x512_S4096x512_S256x4096_1_1_0_0_n_n.rhsIdx j q 0).val = (j 1).val := by
  unfold DotDims.rhsIdx
  rw [dif_neg (show ¬(0 : Fin S4096x512.rank) ∈ dot_S256x512_S4096x512_S256x4096_1_1_0_0_n_n.rhsBatch by decide), dif_pos (show (0 : Fin S4096x512.rank) ∈ dot_S256x512_S4096x512_S256x4096_1_1_0_0_n_n.rhsNonContracting by decide)]
  rfl
theorem second_rhs_1 (j : S256x4096.Idx) (q : dot_S256x512_S4096x512_S256x4096_1_1_0_0_n_n.contr.Idx) :
    (dot_S256x512_S4096x512_S256x4096_1_1_0_0_n_n.rhsIdx j q 1).val = (q ⟨0, by decide⟩).val :=
  dot_S256x512_S4096x512_S256x4096_1_1_0_0_n_n.rhsIdx_val_of_single rfl j q

/-- Entry `(p, o)` of H · Vsᵀ, accumulated from zero, is `∑ₖ H[p, k] · Vs[o, k]`. -/
theorem second_product_apply (A : FVec Ideal S256x512 .bf16) (B : FVec Ideal S4096x512 .bf16) (p : Fin 256) (o : Fin 4096) :
    matmul dot_S256x512_S4096x512_S256x4096_1_1_0_0_n_n none A B (constant (F := Ideal) S256x4096 .f32 0x00000000#32) (ix2 p o)
      = ∑ k : Fin 512, A (ix2 p k) * B (ix2 o k) := by
  show FloatOps.matmul dot_S256x512_S4096x512_S256x4096_1_1_0_0_n_n none A B (constant (F := Ideal) S256x4096 .f32 0x00000000#32) (ix2 p o) = _
  rw [Ideal.matmul_constant_zero_apply, ← Equiv.sum_comp (contrEquiv1 dot_S256x512_S4096x512_S256x4096_1_1_0_0_n_n 512 rfl rfl).symm]
  refine Finset.sum_congr rfl fun k _ => ?_
  have hk := contrEquiv1_symm_val dot_S256x512_S4096x512_S256x4096_1_1_0_0_n_n 512 rfl rfl k
  have el : dot_S256x512_S4096x512_S256x4096_1_1_0_0_n_n.lhsIdx (ix2 p o) ((contrEquiv1 dot_S256x512_S4096x512_S256x4096_1_1_0_0_n_n 512 rfl rfl).symm k) = ix2 p k := funext fun a => Fin.ext (by
    match a with
    | ⟨0, _⟩ => exact second_lhs_0 _ _
    | ⟨1, _⟩ => exact (second_lhs_1 _ _).trans hk)
  have er : dot_S256x512_S4096x512_S256x4096_1_1_0_0_n_n.rhsIdx (ix2 p o) ((contrEquiv1 dot_S256x512_S4096x512_S256x4096_1_1_0_0_n_n 512 rfl rfl).symm k) = ix2 o k := funext fun a => Fin.ext (by
    match a with
    | ⟨0, _⟩ => exact second_rhs_0 _ _
    | ⟨1, _⟩ => exact (second_rhs_1 _ _).trans hk)
  rw [el, er]

/-! ## The body's stored value -/

/-- Entry `(p, o)` of what the body stores, from the three blocks it loads: the casts to the blocks' own shapes and
    the changes of float format drop out, and the two products read as their sums. -/
theorem payload_apply (x0 : Vec Ideal S256x4096 .f32) (u : Vec Ideal S4096x512 .bf16) (vs : Vec Ideal S4096x512 .bf16)
    (p : Fin 256) (o : Fin 4096) :
    k0_pay1 (F := Ideal) x0 u vs (ix2 p o)
      = ∑ k : Fin 512, (∑ i : Fin 4096, x0 (ix2 p i) * u (ix2 i k)) * vs (ix2 o k) := by
  unfold k0_pay1
  rw [shapeCast_self, shapeCast_self, shapeCast_self]
  refine (second_product_apply _ _ p o).trans ?_
  refine Finset.sum_congr rfl fun k _ => ?_
  refine congrArg (· * vs (ix2 o k)) ?_
  rw [truncf_apply]
  exact first_product_apply _ _ p k

end Cert.KernelIdeal.Body

end
-- ==== Proof.Spec.lean ====
/-
  The function both programs compute, index by index, over the extended reals.

  With `X` the input rows, `U` the first factor (4096 × 512) and `Vs` the second factor with its columns already
  scaled (4096 × 512), the result's entry for row `r` and output feature `o` is
      ∑ₖ (∑ᵢ X[r, i] · U[i, k]) · Vs[o, k]:
  the row is taken through the 512-wide bottleneck first, then out again. `flat` states it for the rows laid out
  as one axis of 8 · 2048 = 16384, `lowRank` for the rows as (batch, position); the two differ by the row-major
  renumbering `r = 2048 · b + s` only.
-/
import Idealize.ShloMosaic.PureOps.Ideal
import Idealize.ShloMosaic.Lib.ValueIdx

open scoped BigOperators

noncomputable section

namespace Cert.LowRank

open Idealize.ShloMosaic Idealize.ShloMosaic.ValueIdx

/-- The result over the flattened rows: entry `(r, o)`. -/
def flat (X : (⟨2, ![16384, 4096]⟩ : Shape).Idx → EReal) (U Vs : (⟨2, ![4096, 512]⟩ : Shape).Idx → EReal) :
    (⟨2, ![16384, 4096]⟩ : Shape).Idx → EReal :=
  fun j => ∑ k : Fin 512, (∑ i : Fin 4096, X (ix2 (n0 := 16384) (n1 := 4096) (j 0) i) * U (ix2 (n0 := 4096) (n1 := 512) i k))
    * Vs (ix2 (n0 := 4096) (n1 := 512) (j 1) k)

/-- The result over (batch, position, feature): entry `(b, s, o)`. -/
def lowRank (x : (⟨3, ![8, 2048, 4096]⟩ : Shape).Idx → EReal) (U Vs : (⟨2, ![4096, 512]⟩ : Shape).Idx → EReal) :
    (⟨3, ![8, 2048, 4096]⟩ : Shape).Idx → EReal :=
  fun j => ∑ k : Fin 512, (∑ i : Fin 4096, x (ix3 (n0 := 8) (n1 := 2048) (n2 := 4096) (j 0) (j 1) i) * U (ix2 (n0 := 4096) (n1 := 512) i k))
    * Vs (ix2 (n0 := 4096) (n1 := 512) (j 2) k)

end Cert.LowRank

end
-- ==== Proof.Blocks.lean ====
/-
  From blocks to the array. The grid has 64 points; point `t` works on rows `256·t … 256·t + 255`: it reads that block
  of rows of the flattened input, the whole of both factors, and writes back that block of rows of the result. So what
  a point writes back is the restriction, to its block, of ONE function of the three arrays as the region finds them
  (`Cert.LowRank.flat`), and since the 64 blocks tile the 16384 rows, the result array ends holding that function.
-/
import proofs.«158175_j23587960389934_2_alg».proof.Proof.Gen.KernelIdeal.Frame
import proofs.«158175_j23587960389934_2_alg».proof.Proof.Payload
import proofs.«158175_j23587960389934_2_alg».proof.Proof.Spec
import Idealize.ShloMosaic.Lib.Pipeline.Value
import Idealize.ShloMosaic.Lib.ValueIdx

set_option maxRecDepth 16384

noncomputable section

namespace Cert.KernelIdeal.Blocks

open Cert.KernelIdeal Cert.KernelIdeal.Gen Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The block indices of the four windows at a point, decided over the grid: the row windows (input rows, result
    rows) sit at block `t` of the row axis and block 0 of the feature axis; the two factors are one whole block. -/
theorem block_indices : ∀ t : Fin cfg0.N, win0_3.index t (0 : Fin 2) = t.val ∧ win0_3.index t (1 : Fin 2) = 0
    ∧ win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- WHAT POINT `t` WRITES BACK is block `t` of `flat` of the three arrays as the region finds them. -/
theorem flushed_eq (c : Dev nD) (t : Fin cfg0.N) :
    (dats m 0 c).flushed 3 t
      = ((cfg0.win 3).blk t).view.read (Elt Ideal) (Cert.LowRank.flat (V m c main_v7) (V m c main_v6) (V m c main_v5)) := by
  show (cfg0.win 3).cut (grid0.coords t) ((dats m 0 c).after 3 t) = _
  rw [after0_3]
  unfold out0_3
  rw [View.canon_unit_zero offsets_zero]
  simp only [View.ld_unit_zero (S := S256x4096) offsets_zero, View.ld_unit_zero (S := S4096x512) offsets_zero]
  obtain ⟨e30, e31, e00, e01, e10, e11, e20, e21⟩ := block_indices t
  funext j
  obtain ⟨p, o, rfl⟩ : ∃ (p : Fin 256) (o : Fin 4096), j = ix2 p o := ⟨j 0, j 1, eq_ix2 j⟩
  show k0_pay1 (F := Ideal) (iblk m c 0 t) (iblk m c 1 t) (iblk m c 2 t) (ix2 p o)
    = Cert.LowRank.flat (V m c main_v7) (V m c main_v6) (V m c main_v5) (((cfg0.win 3).blk t).view.emb (ix2 p o))
  refine (Body.payload_apply (iblk m c 0 t) (iblk m c 1 t) (iblk m c 2 t) p o).trans ?_
  unfold Cert.LowRank.flat
  refine Finset.sum_congr rfl fun k _ => ?_
  have h2 : iblk m c 2 t (ix2 o k) = V m c main_v5 (ix2 ((((cfg0.win 3).blk t).view.emb (ix2 p o)) 1) k) := by
    show V m c main_v5 (((cfg0.win 2).blk t).view.emb (ix2 o k)) = _
    refine congrArg (V m c main_v5) (funext fun a => Fin.ext ?_)
    match a with
    | ⟨0, _⟩ => show win0_2.index t (0 : Fin 2) * 4096 + 1 * o.val = win0_3.index t (1 : Fin 2) * 4096 + 1 * o.val; omega
    | ⟨1, _⟩ => show win0_2.index t (1 : Fin 2) * 512 + 1 * k.val = k.val; omega
  rw [h2]
  refine congrArg (· * _) (Finset.sum_congr rfl fun i _ => ?_)
  have h0 : iblk m c 0 t (ix2 p i) = V m c main_v7 (ix2 ((((cfg0.win 3).blk t).view.emb (ix2 p o)) 0) i) := by
    show V m c main_v7 (((cfg0.win 0).blk t).view.emb (ix2 p i)) = _
    refine congrArg (V m c main_v7) (funext fun a => Fin.ext ?_)
    match a with
    | ⟨0, _⟩ => show win0_0.index t (0 : Fin 2) * 256 + 1 * p.val = win0_3.index t (0 : Fin 2) * 256 + 1 * p.val; omega
    | ⟨1, _⟩ => show win0_0.index t (1 : Fin 2) * 4096 + 1 * i.val = i.val; omega
  have h1 : iblk m c 1 t (ix2 i k) = V m c main_v6 (ix2 i k) := by
    show V m c main_v6 (((cfg0.win 1).blk t).view.emb (ix2 i k)) = _
    refine congrArg (V m c main_v6) (funext fun a => Fin.ext ?_)
    match a with
    | ⟨0, _⟩ => show win0_1.index t (0 : Fin 2) * 4096 + 1 * i.val = i.val; omega
    | ⟨1, _⟩ => show win0_1.index t (1 : Fin 2) * 512 + 1 * k.val = k.val; omega
  rw [h0, h1]

/-- An index of the result array is in point `t`'s block iff each coordinate is in the block's range on its axis. -/
theorem mem_blk (t : Fin cfg0.N) (i : S16384x4096.Idx) :
    i ∈ ((cfg0.win 3).blk t).view.set ↔ ∀ a : Fin 2, win0_3.index t a * S256x4096.size a ≤ (i a).val
      ∧ (i a).val < win0_3.index t a * S256x4096.size a + S256x4096.size a := by
  show i ∈ ((View.whole main_v8).slice (win0_3.rect t)).set ↔ _
  rw [View.set_slice_whole, Rect.mem_set_unit]
  exact Iff.rfl

/-- Every index of the result array is in some point's block: row `r` is in block `r / 256`. -/
theorem cover (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  have hN : grid0.N = 64 := N_0
  let t : Fin cfg0.N := ⟨(i 0).val / 256, by show _ < grid0.N; rw [hN]; omega⟩
  obtain ⟨e30, e31, -⟩ := block_indices t
  have ht : t.val = (i 0).val / 256 := rfl
  refine ⟨t, flush0_3 t, ?_⟩
  rw [mem_blk]
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 4096 ≤ (i 1).val ∧ (i 1).val < win0_3.index t (1 : Fin 2) * 4096 + 4096; omega

/-- THE RESULT ARRAY after the region: `flat` of the three arrays as the region finds them. -/
theorem final (c : Dev nD) :
    (dats m 0 c).arrAt 3 cfg0.N = Cert.LowRank.flat (V m c main_v7) (V m c main_v6) (V m c main_v5) :=
  (dats m 0 c).arrAt_eq_of_cover 3 (Cert.LowRank.flat (V m c main_v7) (V m c main_v6) (V m c main_v5))
    (fun t _ => flushed_eq m c t) cover

end Cert.KernelIdeal.Blocks

end
-- ==== Proof.KernelRun.lean ====
/-
  The kernel's run, read as values. Before the region the program flattens the input rows (a reshape of
  8 × 2048 × 4096 to 16384 × 4096: row `r = 2048·b + s`), passes the first factor through a change of float format
  (the identity on exact values), and scales the columns of the second factor by `s · mask` (a vector broadcast down
  the rows, then an entrywise product). After the region it reshapes the 16384 × 4096 result back. The region leaves
  `flat` of those three arrays; reading the two reshapes at an index turns it into `lowRank` of the arguments.
-/
import proofs.«158175_j23587960389934_2_alg».proof.Proof.Gen.KernelIdeal.Frame
import proofs.«158175_j23587960389934_2_alg».proof.Proof.Blocks
import proofs.«158175_j23587960389934_2_alg».proof.Proof.Spec
import Idealize.ShloMosaic.Lib.StableHlo.Run
import Idealize.ShloMosaic.Lib.Pipeline.Value
import Idealize.ShloMosaic.Lib.ValueIdx

set_option maxRecDepth 16384

noncomputable section

namespace Cert.KernelIdeal.RunValue

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ) (ρ : Dev nD → PrngReg)

/-- The second factor with its columns scaled: `V[o, k] · (s[k] · mask[k])`, as the program's operations spell it. -/
def scaled (V : FVec Ideal S4096x512 .f32) (s : FVec Ideal S512 .f32) (mask : IVec S512 1) : FVec Ideal S4096x512 .f32 :=
  mulf V (broadcastInDim S4096x512 ![0, 1] bcast_S1x512_S4096x512_0_1
    (broadcastInDim S1x512 ![1] bcast_S512_S1x512_1 (mulf s (uitofp (F := Ideal) .f32 mask))))

/-- The input rows as the region finds them: the argument, flattened. -/
theorem rows_eq (c : Dev nD) : (V m c main_v7 : S16384x4096.Idx → EReal)
    = shapeCast S16384x4096 (m ((c : Thread nD τ).loc main_arg0)) shapeCasts_S8x2048x4096_S16384x4096 := by
  show StableHlo.after hostOps0 (fun b => m (c, b)) (Proc.devRef .tc main_v7) = _
  after_results
  rfl

/-- The first factor as the region finds it: the argument (a change of float format is the identity). -/
theorem firstFactor_eq (c : Dev nD) : (V m c main_v6 : S4096x512.Idx → EReal) = m ((c : Thread nD τ).loc main_arg1) := by
  show StableHlo.after hostOps0 (fun b => m (c, b)) (Proc.devRef .tc main_v6) = _
  after_results
  rfl

/-- The second factor as the region finds it: the argument with its columns scaled. -/
theorem secondFactor_eq (c : Dev nD) : (V m c main_v5 : S4096x512.Idx → EReal)
    = scaled (m ((c : Thread nD τ).loc main_arg2)) (m ((c : Thread nD τ).loc main_arg3)) (m ((c : Thread nD τ).loc main_arg4)) := by
  show StableHlo.after hostOps0 (fun b => m (c, b)) (Proc.devRef .tc main_v5) = _
  after_results
  rfl

/-- Row `2048·b + s` of the flattened input is row `(b, s)` of the argument. -/
theorem rows_apply (x : S8x2048x4096.Idx → EReal) (b : Fin 8) (s : Fin 2048) (i : Fin 4096) (r : Fin 16384)
    (hr : r.val = b.val * 2048 + s.val) :
    shapeCast S16384x4096 x shapeCasts_S8x2048x4096_S16384x4096 (ix2 r i) = x (ix3 b s i) :=
  shapeCast_apply x shapeCasts_S8x2048x4096_S16384x4096 (ix2 r i) (ix3 b s i) (by
    rw [Shape.rowMajor_val_three, Shape.rowMajor_val_two]
    show (b.val * 2048 + s.val) * 4096 + i.val = r.val * 4096 + i.val
    rw [hr])

/-- Entry `(b, s, o)` of the result reshaped back is entry `(2048·b + s, o)` of the flat result. -/
theorem unflatten_apply (Y : S16384x4096.Idx → EReal) (b : Fin 8) (s : Fin 2048) (o : Fin 4096) (r : Fin 16384)
    (hr : r.val = b.val * 2048 + s.val) :
    shapeCast S8x2048x4096 Y shapeCasts_S16384x4096_S8x2048x4096 (ix3 b s o) = Y (ix2 r o) :=
  shapeCast_apply Y shapeCasts_S16384x4096_S8x2048x4096 (ix3 b s o) (ix2 r o) (by
    rw [Shape.rowMajor_val_three, Shape.rowMajor_val_two]
    show r.val * 4096 + o.val = (b.val * 2048 + s.val) * 4096 + o.val
    rw [hr])

/-- The flat result of the flattened rows, reshaped back, is `lowRank` of the rows. -/
theorem unflatten_flat (x : S8x2048x4096.Idx → EReal) (U Vs : S4096x512.Idx → EReal) :
    shapeCast S8x2048x4096
        (Cert.LowRank.flat (shapeCast S16384x4096 x shapeCasts_S8x2048x4096_S16384x4096) U Vs)
        shapeCasts_S16384x4096_S8x2048x4096
      = Cert.LowRank.lowRank x U Vs := by
  funext j
  obtain ⟨b, s, o, rfl⟩ : ∃ (b : Fin 8) (s : Fin 2048) (o : Fin 4096), j = ix3 b s o := ⟨j 0, j 1, j 2, eq_ix3 j⟩
  have hb : b.val < 8 := b.isLt
  have hs : s.val < 2048 := s.isLt
  rw [unflatten_apply _ b s o ⟨b.val * 2048 + s.val, by omega⟩ rfl]
  unfold Cert.LowRank.flat Cert.LowRank.lowRank
  refine Finset.sum_congr rfl fun k _ => congrArg (· * _) (Finset.sum_congr rfl fun i _ => congrArg (· * _) ?_)
  exact rows_apply x b s i ⟨b.val * 2048 + s.val, by omega⟩ rfl

/-- THE RESULT after the lines that follow the region: `lowRank` of the arguments, the second factor scaled. -/
theorem result_eq (c : Dev nD) :
    Pipeline.afterTail₀ cfgs (dats m) 0 (V0 m) [hostOps1] c main_v9
      = Cert.LowRank.lowRank (m ((c : Thread nD τ).loc main_arg0)) (m ((c : Thread nD τ).loc main_arg1))
          (scaled (m ((c : Thread nD τ).loc main_arg2)) (m ((c : Thread nD τ).loc main_arg3)) (m ((c : Thread nD τ).loc main_arg4))) := by
  have hW : Pipeline.withArrays (cfgs 0).spec c (V0 m c) (fun w => (dats m 0 c).arrAt w (cfgs 0).N) (Proc.devRef .tc main_v8)
      = Cert.LowRank.flat (V m c main_v7) (V m c main_v6) (V m c main_v5) :=
    (Pipeline.withArrays_arr spec0 launch0.win.arr_inj c _ _ 3).trans (Blocks.final m c)
  unfold Pipeline.afterTail₀
  show StableHlo.after hostOps1 _ (Proc.devRef .tc main_v9) = _
  after_results
  show shapeCast S8x2048x4096
      (Pipeline.withArrays (cfgs 0).spec c (V0 m c) (fun w => (dats m 0 c).arrAt w (cfgs 0).N) (Proc.devRef .tc main_v8))
      shapeCasts_S16384x4096_S8x2048x4096 = _
  rw [hW, rows_eq, firstFactor_eq, secondFactor_eq]
  exact unflatten_flat _ _ _

/-- THE RUN: every weakly fair execution of the kernel's program terminates with the result at `lowRank` of the
    arguments and the arguments unchanged. -/
theorem run : θ_run defs (onTc (τ := τ) (main (F := Ideal))) ⟨m, fun _ => 0, ρ⟩ fun r => ∀ c : Dev nD,
      r.2.mem ((c.tc : Thread nD τ).loc main_v9)
        = Cert.LowRank.lowRank (m ((c.tc : Thread nD τ).loc main_arg0)) (m ((c.tc : Thread nD τ).loc main_arg1))
            (scaled (m ((c.tc : Thread nD τ).loc main_arg2)) (m ((c.tc : Thread nD τ).loc main_arg3)) (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
      ⟨((h c).2 main_v9 (Pipeline.mem_restRefs_of main_v9 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c),
       ((h c).2 main_arg2 (Pipeline.mem_restRefs_of main_arg2 (by decide) (by decide))).trans (W_main_arg2 m (dats m) c),
       ((h c).2 main_arg3 (Pipeline.mem_restRefs_of main_arg3 (by decide) (by decide))).trans (W_main_arg3 m (dats m) c),
       ((h c).2 main_arg4 (Pipeline.mem_restRefs_of main_arg4 (by decide) (by decide))).trans (W_main_arg4 m (dats m) c)⟩)
    (run_main m ρ)

end Cert.KernelIdeal.RunValue

end
-- ==== Proof.LibSumSwap.lean ====
/-
  The one algebraic law behind the low-rank product: for real matrices, multiplying a row `x` first by `U` and
  then by `Wᵀ` gives the same numbers as multiplying `x` by the product `W Uᵀ` computed beforehand,
      ∑ₖ (∑ᵢ xᵢ · Uᵢₖ) · wₖ  =  ∑ᵢ xᵢ · (∑ₖ wₖ · Uᵢₖ).
  Over the extended reals the law needs every entry to be a real number: distributing a factor over a sum and
  exchanging two sums both fail at the infinities. So the entries come with real witnesses, the coercion is
  pushed outside (it commutes with products and with finite sums), and what is left is the identity over ℝ.
-/
import Idealize.ShloMosaic.PureOps.Ideal

open scoped BigOperators

namespace Cert.LowRank

/-- The coercion of the reals into the extended reals commutes with finite sums. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The identity over the reals: expand both sides into the double sum of `xᵢ · Uᵢₖ · wₖ` and exchange the sums. -/
theorem sum_swap_real {ι κ : Type*} [Fintype ι] [Fintype κ] (x : ι → ℝ) (u : ι → κ → ℝ) (w : κ → ℝ) :
    ∑ k, (∑ i, x i * u i k) * w k = ∑ i, x i * ∑ k, w k * u i k := by
  simp_rw [Finset.sum_mul, Finset.mul_sum]
  rw [Finset.sum_comm]
  exact Finset.sum_congr rfl fun i _ => Finset.sum_congr rfl fun k _ => by ring

/-- The same identity over the extended reals, for entries that are real numbers. -/
theorem sum_swap {ι κ : Type*} [Fintype ι] [Fintype κ] (x : ι → EReal) (u : ι → κ → EReal) (w : κ → EReal)
    (hx : ∀ i, ∃ r : ℝ, x i = (r : EReal)) (hu : ∀ i k, ∃ r : ℝ, u i k = (r : EReal))
    (hw : ∀ k, ∃ r : ℝ, w k = (r : EReal)) :
    ∑ k, (∑ i, x i * u i k) * w k = ∑ i, x i * ∑ k, w k * u i k := by
  choose x' hx' using hx
  choose u' hu' using hu
  choose w' hw' using hw
  have hl : ∑ k, (∑ i, x i * u i k) * w k = ((∑ k, (∑ i, x' i * u' i k) * w' k : ℝ) : EReal) := by
    rw [coe_sum]
    refine Finset.sum_congr rfl fun k _ => ?_
    rw [EReal.coe_mul, coe_sum, hw']
    refine congrArg (· * (w' k : EReal)) (Finset.sum_congr rfl fun i _ => ?_)
    rw [EReal.coe_mul, hx', hu']
  have hr : ∑ i, x i * ∑ k, w k * u i k = ((∑ i, x' i * ∑ k, w' k * u' i k : ℝ) : EReal) := by
    rw [coe_sum]
    refine Finset.sum_congr rfl fun i _ => ?_
    rw [EReal.coe_mul, coe_sum, hx']
    refine congrArg ((x' i : EReal) * ·) (Finset.sum_congr rfl fun k _ => ?_)
    rw [EReal.coe_mul, hw', hu']
  rw [hl, hr, sum_swap_real]

end Cert.LowRank
-- ==== Proof.RefBridge.lean ====
/-
  The reference's result is the specification. The reference first forms the 4096 × 4096 matrix
      W[o, i] = ∑ₖ Vs[o, k] · U[i, k]
  (`Vs` the second factor with its columns scaled; the first factor read through its transpose) and then
      out[b, s, o] = ∑ᵢ x[b, s, i] · W[o, i].
  The specification takes the row through the 512-wide middle first: ∑ₖ (∑ᵢ x[b, s, i] · U[i, k]) · Vs[o, k].
  The two agree when every entry is a real number, by distributing and exchanging the two finite sums; over the
  extended reals that step is not available at the infinities, which is why the entries come with real witnesses.
-/
import proofs.«158175_j23587960389934_2_alg».proof.Proof.Gen.ReferenceIdeal.Read
import proofs.«158175_j23587960389934_2_alg».proof.Proof.Spec
import proofs.«158175_j23587960389934_2_alg».proof.Proof.LibSumSwap
import Idealize.ShloMosaic.Lib.ValueIdx
import Idealize.ShloMosaic.PureOps.Ideal.Laws

open scoped BigOperators

noncomputable section

namespace Cert.ReferenceIdeal.RefValue

open Cert.ReferenceIdeal Cert.ReferenceIdeal.Read Idealize.ShloMosaic Idealize.ShloMosaic.ValueIdx

/-! ### The index functions of the two products, by coordinates -/

/-- The outer product reads its left operand, for result index `(b, s, o)` and summation index `i`, at `(b, s, i)`. -/
theorem lidx_v7_eq (j : S8x2048x4096.Idx) (i : Fin 4096) :
    lidx_main_v7 j i = ix3 (n0 := 8) (n1 := 2048) (n2 := 4096) (j 0) (j 1) i := by
  funext a
  match a with
  | ⟨0, _⟩ => rfl
  | ⟨1, _⟩ => rfl
  | ⟨2, _⟩ => rfl

/-- The outer product reads the matrix `W` at `(o, i)`, and the inner product reads, for `W`'s entry `(o, i)` and
    summation index `k`, its left operand at `(o, k)`. -/
theorem lidx_v6_eq (j : S8x2048x4096.Idx) (i : Fin 4096) (k : Fin 512) :
    lidx_main_v6 (ridx_main_v7 j i) k = ix2 (n0 := 4096) (n1 := 512) (j 2) k := by
  funext a
  match a with
  | ⟨0, _⟩ => rfl
  | ⟨1, _⟩ => rfl

/-- The inner product reads its right operand, the transpose, at `(k, i)`, which is the first factor at `(i, k)`. -/
theorem idx_v5_eq (j : S8x2048x4096.Idx) (i : Fin 4096) (k : Fin 512) :
    idx_main_v5 (ridx_main_v6 (ridx_main_v7 j i) k) = ix2 (n0 := 4096) (n1 := 512) i k := by
  funext a
  match a with
  | ⟨0, _⟩ => rfl
  | ⟨1, _⟩ => rfl

/-! ### The scaled second factor has real entries -/

/-- Every entry of the scaled second factor is a real number: it is `V[o, k] · (s[k] · m[k])` with `m[k]` the mask
    bit read as the number 0 or 1, a product of three reals. -/
theorem val_main_v4_real (V : (⟨S4096x512, .f32⟩ : BufTy).Contents (Elt Ideal))
    (s : (⟨S512, .f32⟩ : BufTy).Contents (Elt Ideal)) (mask : (⟨S512, .i1⟩ : BufTy).Contents (Elt Ideal))
    (hV : ∀ i, ∃ r : ℝ, V i = (r : EReal)) (hs : ∀ i, ∃ r : ℝ, s i = (r : EReal)) (i : S4096x512.Idx) :
    ∃ r : ℝ, val_main_v4 (F := Ideal) V s mask i = (r : EReal) := by
  obtain ⟨v, hv⟩ := hV i
  obtain ⟨t, ht⟩ := hs (idx_main_v2 (idx_main_v3 i))
  refine ⟨v * (t * ((mask (idx_main_v2 (idx_main_v3 i))).toNat : ℝ)), ?_⟩
  rw [val_main_v4_apply, val_main_v3_apply, val_main_v2_apply, val_main_v1_apply, val_main_v0_apply, hv, ht]
  show (v : EReal) * ((t : EReal) * (((mask (idx_main_v2 (idx_main_v3 i))).toNat : ℝ) : EReal)) = _
  rw [EReal.coe_mul, EReal.coe_mul]

/-! ### The bridge -/

/-- The entry `(o, i)` of the matrix the reference forms first: `W[o, i] = ∑ₖ Vs[o, k] · U[i, k]`. -/
theorem val_main_v6_at (U V : (⟨S4096x512, .f32⟩ : BufTy).Contents (Elt Ideal))
    (s : (⟨S512, .f32⟩ : BufTy).Contents (Elt Ideal)) (mask : (⟨S512, .i1⟩ : BufTy).Contents (Elt Ideal))
    (j : S8x2048x4096.Idx) (i : Fin 4096) :
    val_main_v6 (F := Ideal) U V s mask (ridx_main_v7 j i)
      = ∑ k : Fin 512, val_main_v4 (F := Ideal) V s mask (ix2 (n0 := 4096) (n1 := 512) (j 2) k)
          * U (ix2 (n0 := 4096) (n1 := 512) i k) := by
  rw [val_main_v6_apply]
  refine Finset.sum_congr rfl fun k _ => ?_
  rw [val_main_v5_apply, lidx_v6_eq, idx_v5_eq]

/-- The reference's result is the low-rank specification, for inputs whose float entries are all real numbers:
    `∑ᵢ x[b, s, i] · (∑ₖ Vs[o, k] · U[i, k]) = ∑ₖ (∑ᵢ x[b, s, i] · U[i, k]) · Vs[o, k]`. -/
theorem reference_eq_lowRank (x : (⟨S8x2048x4096, .f32⟩ : BufTy).Contents (Elt Ideal))
    (U V : (⟨S4096x512, .f32⟩ : BufTy).Contents (Elt Ideal))
    (s : (⟨S512, .f32⟩ : BufTy).Contents (Elt Ideal)) (mask : (⟨S512, .i1⟩ : BufTy).Contents (Elt Ideal))
    (hx : ∀ i, ∃ r : ℝ, x i = (r : EReal)) (hU : ∀ i, ∃ r : ℝ, U i = (r : EReal))
    (hV : ∀ i, ∃ r : ℝ, V i = (r : EReal)) (hs : ∀ i, ∃ r : ℝ, s i = (r : EReal)) :
    val_main_v7 (F := Ideal) x U V s mask = Cert.LowRank.lowRank x U (val_main_v4 (F := Ideal) V s mask) := by
  funext j
  rw [val_main_v7_apply]
  have e : ∀ i : Fin 4096,
      x (lidx_main_v7 j i) * val_main_v6 (F := Ideal) U V s mask (ridx_main_v7 j i)
        = x (ix3 (n0 := 8) (n1 := 2048) (n2 := 4096) (j 0) (j 1) i)
          * ∑ k : Fin 512, val_main_v4 (F := Ideal) V s mask (ix2 (n0 := 4096) (n1 := 512) (j 2) k)
              * U (ix2 (n0 := 4096) (n1 := 512) i k) :=
    fun i => by rw [lidx_v7_eq, val_main_v6_at]
  rw [Finset.sum_congr rfl fun i _ => e i]
  unfold Cert.LowRank.lowRank
  exact (Cert.LowRank.sum_swap
    (fun i : Fin 4096 => x (ix3 (n0 := 8) (n1 := 2048) (n2 := 4096) (j 0) (j 1) i))
    (fun (i : Fin 4096) (k : Fin 512) => U (ix2 (n0 := 4096) (n1 := 512) i k))
    (fun k : Fin 512 => val_main_v4 (F := Ideal) V s mask (ix2 (n0 := 4096) (n1 := 512) (j 2) k))
    (fun i => hx _) (fun i k => hU _) (fun k => val_main_v4_real V s mask hV hs _)).symm

end Cert.ReferenceIdeal.RefValue

end
-- ==== Proof.Finite.lean ====
/-
  Finite inputs, read back. The printed precondition says, of each of the four float arrays, that the conjunction over
  all entries of "the entry's absolute value is strictly below +infinity" holds, and that the four conjunctions hold
  together. Over the extended reals this says exactly that every entry is a real number: an entry is one of -infinity,
  a real, +infinity, and at either infinity the absolute value is +infinity, which is not below itself.
-/
import proofs.«158175_j23587960389934_2_alg».proof.Pre_finite_inputs
import Idealize.ShloMosaic.PureOps.Ideal
import Idealize.ShloMosaic.PureOps.Ideal.Laws
import Idealize.ShloMosaic.Lib.ValueIdx
import Idealize.ShloMosaic.Lib.ReduceAll

noncomputable section

namespace Cert.FiniteInputs

open Idealize.ShloMosaic

/-- The scalar shape has exactly one index: a function out of the empty set of axes. -/
instance subsingleton_scalarIdx : Subsingleton Cert.Pre_finite_inputs.S_.Idx :=
  ⟨fun a b => funext fun d => d.elim0⟩

/-- The single-precision pattern with all exponent bits set and a zero significand denotes +infinity. -/
theorem ofBits_posInf : Ideal.ofBits .f32 0x7F800000#32 = (⊤ : EReal) := by
  simp [Ideal.ofBits, Ideal.ieee]

/-- An extended real `x` with `max x (-x) < +infinity` is a real number: at `x = +infinity` and at `x = -infinity`
    the maximum is +infinity, which is not strictly below +infinity; otherwise `x` is the real it is the image of. -/
theorem real_of_abs_lt_posInf (x : Ideal .f32)
    (h : FloatOps.cmpf (F := Ideal) .olt (FloatOps.hostAbsf (F := Ideal) x)
          (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [ofBits_posInf] at h'
  induction x using EReal.rec with
  | bot => simp [Ideal.cmp] at h'
  | coe r => exact ⟨r, rfl⟩
  | top => simp [Ideal.cmp] at h'

/-- If the conjunction, over every index of an array `x`, of "`|x i| < +infinity`" is true, then every entry of `x`
    is a real number. The conjunction is a reduction by `and` over all axes into the one-index scalar shape, so its
    being 1 gives the comparison's bit 1 at each index, and the comparison at an index is the one of the scalar lemma
    (the broadcast of the scalar constant reads that constant at every index). -/
theorem all_real_of_all_abs_lt_posInf {s : Shape} {axes : List (Fin s.rank)} (x : FVec Ideal s .f32)
    (hb : Cert.Pre_finite_inputs.S_.BroadcastsInDim s (![] : Fin 0 → Fin s.rank))
    (hr : s.ReducesTo axes Cert.Pre_finite_inputs.S_) (hu : 0 < Cert.Pre_finite_inputs.S_.numel)
    (init : IVec Cert.Pre_finite_inputs.S_ 1)
    (e : Host.reduce IntOp.andi
          (cmpf .olt (Host.absf x)
            (broadcastInDim s ![] hb (constant (F := Ideal) Cert.Pre_finite_inputs.S_ .f32 0x7F800000#32)))
          init hr hu ValueIdx.ix0 = 1#1) :
    ∀ i, ∃ r : ℝ, x i = (r : EReal) := by
  intro i
  exact real_of_abs_lt_posInf (x i) (Host.reduce_andi_all _ init hr hu ValueIdx.ix0 e i)

variable [Cert.Pre_finite_inputs.Facts]

/-- The precondition read back: if the printed test of the four float arrays answers true, every entry of each of
    them is a real number. The test is the `and` of four all-entries conjunctions; it is 1 only if each of the four
    is, and each conjunction being 1 makes every entry of its array real by the lemma above. -/
theorem reals_of_pre (a0 : FVec Ideal Cert.Pre_finite_inputs.S8x2048x4096 .f32)
    (a1 a2 : FVec Ideal Cert.Pre_finite_inputs.S4096x512 .f32)
    (a3 : FVec Ideal Cert.Pre_finite_inputs.S512 .f32) (a4 : IVec Cert.Pre_finite_inputs.S512 1)
    (h : Cert.Pre_finite_inputs.fn (F := Ideal) a0 a1 a2 a3 a4 = fun _ => 1#1) :
    (∀ i, ∃ r : ℝ, a0 i = (r : EReal)) ∧ (∀ i, ∃ r : ℝ, a1 i = (r : EReal)) ∧
      (∀ i, ∃ r : ℝ, a2 i = (r : EReal)) ∧ (∀ i, ∃ r : ℝ, a3 i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨all_real_of_all_abs_lt_posInf a0 _ _ _ _ h0', all_real_of_all_abs_lt_posInf a1 _ _ _ _ h1,
    all_real_of_all_abs_lt_posInf a2 _ _ _ _ h2, all_real_of_all_abs_lt_posInf a3 _ _ _ _ h3⟩

end Cert.FiniteInputs

end
-- ==== Proof.lean ====
/-
  A low-rank linear layer: out[b, s, o] = ∑ᵢ x[b, s, i] · W[o, i] with W = (V · diag(s · mask)) · Uᵀ of rank at most 512.

  The reference forms the 4096 × 4096 matrix W first and then multiplies every input row by it. The kernel never forms W:
  it takes each row through the 512-wide bottleneck, h = x · U, and then out = h · Vsᵀ with Vs = V · diag(s · mask), working
  on 256 rows at a time. Over the exact values both are the triple sum ∑ₖ ∑ᵢ x[b, s, i] · U[i, k] · Vs[o, k], grouped
  differently; regrouping distributes a factor over a sum and exchanges two sums, which is sound when every entry is a
  real number, and that is what the precondition (every float input finite) provides, the mask entering as 0 or 1.

  The modules: Spec (the function, index by index), LibSumSwap (the regrouping law), Payload (the kernel body's two products
  on one block), Blocks (the 64 blocks of rows tile the result), KernelRun (the reshapes around the region and the
  kernel's run), RefBridge (the reference's run is the same function), Finite (the precondition read back as real
  entries). Here they are assembled: the three programs run and leave their arguments unchanged, the exact-value reading
  of the kernel is the kernel's own text (no rewrite was applied), and the two exact-value programs end with equal results.
-/
import proofs.«158175_j23587960389934_2_alg».proof.Defs
import proofs.«158175_j23587960389934_2_alg».proof.Proof.Gen.Kernel
import proofs.«158175_j23587960389934_2_alg».proof.Proof.Gen.Kernel.Skeleton
import proofs.«158175_j23587960389934_2_alg».proof.Proof.Gen.Kernel.Launch
import proofs.«158175_j23587960389934_2_alg».proof.Proof.Gen.Kernel.Points
import proofs.«158175_j23587960389934_2_alg».proof.Proof.Gen.Kernel.Frame
import proofs.«158175_j23587960389934_2_alg».proof.Proof.Gen.KernelIdeal
import proofs.«158175_j23587960389934_2_alg».proof.Proof.Gen.KernelIdeal.Skeleton
import proofs.«158175_j23587960389934_2_alg».proof.Proof.Gen.KernelIdeal.Launch
import proofs.«158175_j23587960389934_2_alg».proof.Proof.Gen.KernelIdeal.Points
import proofs.«158175_j23587960389934_2_alg».proof.Proof.Gen.KernelIdeal.Frame
import proofs.«158175_j23587960389934_2_alg».proof.Proof.Gen.ReferenceIdeal
import proofs.«158175_j23587960389934_2_alg».proof.Proof.Gen.ReferenceIdeal.Run
import proofs.«158175_j23587960389934_2_alg».proof.Proof.Gen.ReferenceIdeal.Read
import proofs.«158175_j23587960389934_2_alg».proof.Proof.Gen.Pre_finite_inputs
import proofs.«158175_j23587960389934_2_alg».proof.Proof.KernelRun
import proofs.«158175_j23587960389934_2_alg».proof.Proof.RefBridge
import proofs.«158175_j23587960389934_2_alg».proof.Proof.Finite
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its exact-value reading. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments, all float entries real: the kernel ends at `lowRank` of the arguments
    (its run), the reference at its own composed term, which is `lowRank` of the same arguments by the regrouping law. -/
theorem algebraic : Cert.algebraic_KernelIdeal_ReferenceIdeal := by
  intro m ρ m' ρ' hpre hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨hx, hU, hV, hs⟩ := Cert.FiniteInputs.reals_of_pre _ _ _ _ _ (hpre c)
  rw [(hagree c).1, (hagree c).2.1, (hagree c).2.2.1, (hagree c).2.2.2.1, (hagree c).2.2.2.2]
  exact (Cert.ReferenceIdeal.Read.val_main_v7_eq _ _ _ _ _).trans
    (Cert.ReferenceIdeal.RefValue.reference_eq_lowRank _ _ _ _ _ hx hU hV hs)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
